-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  IdealRules.named_const.Statement Cert.KernelIdeal.κ "a_exact_inv_1024" .f32 0x3A800000#32 ((1 / 1024 : ℝ) : EReal)
  ∧ IdealRules.named_const.Statement Cert.KernelIdeal.κ "inv_1023" .f32 0x3A802008#32 ((1 / 1023 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v21)) (v1 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_v20) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_v21) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536 : Shape := ⟨1, ![65536]⟩
abbrev S50257x512 : Shape := ⟨2, ![50257, 512]⟩
abbrev S512x512 : Shape := ⟨2, ![512, 512]⟩
abbrev S4096x512 : Shape := ⟨2, ![4096, 512]⟩
abbrev S1024 : Shape := ⟨1, ![1024]⟩
abbrev S_ : Shape := ⟨0, ![]⟩

class Facts : Prop where
  bcast_S_S50257x512 : S_.BroadcastsInDim S50257x512 (![] : Fin 0 → Fin S50257x512.rank)
  reducesTo_S50257x512_S_d0_1 : S50257x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bcast_S_S4096x512 : S_.BroadcastsInDim S4096x512 (![] : Fin 0 → Fin S4096x512.rank)
  reducesTo_S4096x512_S_d0_1 : S4096x512.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg7 : FVec F S1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024 .f32 := Host.absf main_arg7
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  main_v23

def fn {F : FTy → Type} [FloatOps F] (main_arg0 : IVec S65536 32) (main_arg1 : IVec S65536 32) (main_arg2 : IVec S65536 32) (main_arg3 : FVec F S50257x512 .f32) (main_arg4 : FVec F S512x512 .f32) (main_arg5 : FVec F S4096x512 .f32) (main_arg6 : FVec F S1024 .f32) (main_arg7 : FVec F S1024 .f32) : IVec S_ 1 :=
  let main_v0 : FVec F S50257x512 .f32 := Host.absf main_arg3
  let main_cst : FVec F S_ .f32 := constant S_ .f32 0x7F800000#32
  let main_v1 : FVec F S50257x512 .f32 := broadcastInDim S50257x512 ![] bcast_S_S50257x512 main_cst
  let main_v2 : IVec S50257x512 1 := cmpf .olt main_v0 main_v1
  let main_c : IVec S_ 1 := constantI S_ 1 1#1
  let main_v3 : IVec S_ 1 := (fun x v => Host.reduce IntOp.andi x v reducesTo_S50257x512_S_d0_1 h_S_) main_v2 main_c
  let main_v4 : FVec F S512x512 .f32 := Host.absf main_arg4
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S4096x512 .f32 := Host.absf main_arg5
  let main_cst_2 : FVec F S_ .f32 := constant S_ .f32 0x7F800000#32
  let main_v10 : FVec F S4096x512 .f32 := broadcastInDim S4096x512 ![] bcast_S_S4096x512 main_cst_2
  let main_v11 : IVec S4096x512 1 := cmpf .olt main_v9 main_v10
  let main_c_3 : IVec S_ 1 := constantI S_ 1 1#1
  let main_v12 : IVec S_ 1 := (fun x v => Host.reduce IntOp.andi x v reducesTo_S4096x512_S_d0_1 h_S_) main_v11 main_c_3
  let main_v13 : IVec S_ 1 := andi main_v8 main_v12
  let main_v14 : FVec F S1024 .f32 := Host.absf main_arg6
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg7 main_v13 main_v16
-- ==== Kernel.lean ====
abbrev S65536 : Shape := ⟨1, ![65536]⟩
abbrev S50257x512 : Shape := ⟨2, ![50257, 512]⟩
abbrev S512x512 : Shape := ⟨2, ![512, 512]⟩
abbrev S4096x512 : Shape := ⟨2, ![4096, 512]⟩
abbrev S1024 : Shape := ⟨1, ![1024]⟩
abbrev S_ : Shape := ⟨0, ![]⟩
abbrev S65536x1 : Shape := ⟨2, ![65536, 1]⟩
abbrev S65536x512 : Shape := ⟨2, ![65536, 512]⟩
abbrev S65536x1024 : Shape := ⟨2, ![65536, 1024]⟩
abbrev S512x1024 : Shape := ⟨2, ![512, 1024]⟩
abbrev S512 : Shape := ⟨1, ![512]⟩
abbrev S512x1 : Shape := ⟨2, ![512, 1]⟩
abbrev S1x512 : Shape := ⟨2, ![1, 512]⟩

abbrev nBuf : Space → Nat
  | .hbm => 36
  | .vmem => 10
  | .smem => 0
  | _ => 0

abbrev bufTy : (tb : Table) → Fin (tcTables nBuf tb) → BufTy
  | .hbm, ⟨0, _⟩ => ⟨S65536, .i32⟩
  | .hbm, ⟨1, _⟩ => ⟨S65536, .i32⟩
  | .hbm, ⟨2, _⟩ => ⟨S65536, .i32⟩
  | .hbm, ⟨3, _⟩ => ⟨S50257x512, .f32⟩
  | .hbm, ⟨4, _⟩ => ⟨S512x512, .f32⟩
  | .hbm, ⟨5, _⟩ => ⟨S4096x512, .f32⟩
  | .hbm, ⟨6, _⟩ => ⟨S1024, .f32⟩
  | .hbm, ⟨7, _⟩ => ⟨S1024, .f32⟩
  | .hbm, ⟨8, _⟩ => ⟨S_, .i32⟩
  | .hbm, ⟨9, _⟩ => ⟨S65536, .i32⟩
  | .hbm, ⟨10, _⟩ => ⟨S65536, .i1⟩
  | .hbm, ⟨11, _⟩ => ⟨S_, .i32⟩
  | .hbm, ⟨12, _⟩ => ⟨S65536, .i32⟩
  | .hbm, ⟨13, _⟩ => ⟨S65536, .i32⟩
  | .hbm, ⟨14, _⟩ => ⟨S65536, .i32⟩
  | .hbm, ⟨15, _⟩ => ⟨S65536x1, .i32⟩
  | .hbm, ⟨16, _⟩ => ⟨S65536x512, .f32⟩
  | .hbm, ⟨17, _⟩ => ⟨S_, .i32⟩
  | .hbm, ⟨18, _⟩ => ⟨S65536, .i32⟩
  | .hbm, ⟨19, _⟩ => ⟨S65536, .i1⟩
  | .hbm, ⟨20, _⟩ => ⟨S_, .i32⟩
  | .hbm, ⟨21, _⟩ => ⟨S65536, .i32⟩
  | .hbm, ⟨22, _⟩ => ⟨S65536, .i32⟩
  | .hbm, ⟨23, _⟩ => ⟨S65536, .i32⟩
  | .hbm, ⟨24, _⟩ => ⟨S65536x1, .i32⟩
  | .hbm, ⟨25, _⟩ => ⟨S65536x512, .f32⟩
  | .hbm, ⟨26, _⟩ => ⟨S_, .i32⟩
  | .hbm, ⟨27, _⟩ => ⟨S65536, .i32⟩
  | .hbm, ⟨28, _⟩ => ⟨S65536, .i1⟩
  | .hbm, ⟨29, _⟩ => ⟨S_, .i32⟩
  | .hbm, ⟨30, _⟩ => ⟨S65536, .i32⟩
  | .hbm, ⟨31, _⟩ => ⟨S65536, .i32⟩
  | .hbm, ⟨32, _⟩ => ⟨S65536, .i32⟩
  | .hbm, ⟨33, _⟩ => ⟨S65536x1, .i32⟩
  | .hbm, ⟨34, _⟩ => ⟨S65536x512, .f32⟩
  | .hbm, ⟨35, _⟩ => ⟨S65536x1024, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S1024, .f32⟩
  | .local _ .vmem, ⟨7, _⟩ => ⟨S1024, .f32⟩
  | .local _ .vmem, ⟨8, _⟩ => ⟨S512x1024, .f32⟩
  | .local _ .vmem, ⟨9, _⟩ => ⟨S512x1024, .f32⟩
  | _, _ => ⟨S65536, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c_1 : Ref sig .tc := ⟨.hbm, 17, rfl⟩
abbrev main_v7 : Ref sig .tc := ⟨.hbm, 18, rfl⟩
abbrev main_v8 : Ref sig .tc := ⟨.hbm, 19, rfl⟩
abbrev main_c_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_c_3 : Ref sig .tc := ⟨.hbm, 26, rfl⟩
abbrev main_v14 : Ref sig .tc := ⟨.hbm, 27, rfl⟩
abbrev main_v15 : Ref sig .tc := ⟨.hbm, 28, rfl⟩
abbrev main_c_4 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S_S65536 : S_.BroadcastsInDim S65536 (![] : Fin 0 → Fin S65536.rank)
  bcast_S65536_S65536x1_0 : S65536.BroadcastsInDim S65536x1 (![0] : Fin 1 → Fin S65536x1.rank)
  inb_S512x512_S512x512_0_0 : ∀ a, (![0, 0] : Fin 2 → Nat) a + S512x512.size a ≤ S512x512.size a
  h_S512x512 : 0 < S512x512.numel
  shapeCasts_S512x512_S512x512 : S512x512.ShapeCasts S512x512
  reduces_S512x512_S512 : S512x512.Reduces [1] S512
  shapeCasts_S512_S512x1 : S512.ShapeCasts S512x1
  broadcasts_S512x1_S512x512 : S512x1.Broadcasts S512x512
  inb_S1024_S1024_0 : ∀ a, (![0] : Fin 1 → Nat) a + S1024.size a ≤ S1024.size a
  h_S1024 : 0 < S1024.numel
  slices_S1024_o0_S512 : S1024.Slices ![0] S512
  slices_S1024_o512_S512 : S1024.Slices ![512] S512
  shapeCasts_S512_S1x512 : S512.ShapeCasts S1x512
  broadcasts_S1x512_S512x512 : S1x512.Broadcasts S512x512
  inb_S512x1024_S512x512_0_0 : ∀ a, (![0, 0] : Fin 2 → Nat) a + S512x512.size a ≤ S512x1024.size a
  inb_S512x1024_S512x512_0_512 : ∀ a, (![0, 512] : Fin 2 → Nat) a + S512x512.size a ≤ S512x1024.size a
  gather_S50257x512_S65536x1_S65536x512_1_0_n_n_0_1_1512_wf : GatherDims.WF S50257x512 S65536x1 S65536x512 [1] [0] [] [0] [] 1 ![1, 512]
  gather_S512x512_S65536x1_S65536x512_1_0_n_n_0_1_1512_wf : GatherDims.WF S512x512 S65536x1 S65536x512 [1] [0] [] [0] [] 1 ![1, 512]
  gather_S4096x512_S65536x1_S65536x512_1_0_n_n_0_1_1512_wf : GatherDims.WF S4096x512 S65536x1 S65536x512 [1] [0] [] [0] [] 1 ![1, 512]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S65536x512.size a
  hwx0_0 : ∀ i : grid0.Coords, EltTy.bits .f32 = 32 ∨ (Rect.block (s := S65536x512) S512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S65536x512.size a
  hwx0_1 : ∀ i : grid0.Coords, EltTy.bits .f32 = 32 ∨ (Rect.block (s := S65536x512) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S65536x512.size a
  hwx0_2 : ∀ i : grid0.Coords, EltTy.bits .f32 = 32 ∨ (Rect.block (s := S65536x512) S512x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024.size a ≤ S1024.size a
  hwx0_3 : ∀ i : grid0.Coords, EltTy.bits .f32 = 32 ∨ (Rect.block (s := S1024) S1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024.size a ≤ S1024.size a
  hwx0_4 : ∀ i : grid0.Coords, EltTy.bits .f32 = 32 ∨ (Rect.block (s := S1024) S1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1024.size a ≤ S65536x1024.size a
  hwx0_5 : ∀ i : grid0.Coords, EltTy.bits .f32 = 32 ∨ (Rect.block (s := S65536x1024) S512x1024.size (cc0_transform_5 i) (hinb0_5 i)).WholeWords (EltTy.packing .f32)

variable [Facts₀]

def gather_S50257x512_S65536x1_S65536x512_1_0_n_n_0_1_1512 : GatherDims S50257x512 S65536x1 S65536x512 where
  offsetDims := [1]
  collapsedSliceDims := [0]
  operandBatchingDims := []
  startIndicesBatchingDims := []
  startIndexMap := [0]
  indexVectorDim := 1
  sliceSizes := ![1, 512]
  wf := gather_S50257x512_S65536x1_S65536x512_1_0_n_n_0_1_1512_wf
def gather_S512x512_S65536x1_S65536x512_1_0_n_n_0_1_1512 : GatherDims S512x512 S65536x1 S65536x512 where
  offsetDims := [1]
  collapsedSliceDims := [0]
  operandBatchingDims := []
  startIndicesBatchingDims := []
  startIndexMap := [0]
  indexVectorDim := 1
  sliceSizes := ![1, 512]
  wf := gather_S512x512_S65536x1_S65536x512_1_0_n_n_0_1_1512_wf
def gather_S4096x512_S65536x1_S65536x512_1_0_n_n_0_1_1512 : GatherDims S4096x512 S65536x1 S65536x512 where
  offsetDims := [1]
  collapsedSliceDims := [0]
  operandBatchingDims := []
  startIndicesBatchingDims := []
  startIndexMap := [0]
  indexVectorDim := 1
  sliceSizes := ![1, 512]
  wf := gather_S4096x512_S65536x1_S65536x512_1_0_n_n_0_1_1512_wf

abbrev win0_0 : Pipeline.Window sig grid0 :=
  Pipeline.Window.ofSpec (Memref.whole main_v6) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v20) S512x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg7) S1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v21) S512x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S65536 : Shape := ⟨1, ![65536]⟩
abbrev S50257x512 : Shape := ⟨2, ![50257, 512]⟩
abbrev S512x512 : Shape := ⟨2, ![512, 512]⟩
abbrev S4096x512 : Shape := ⟨2, ![4096, 512]⟩
abbrev S1024 : Shape := ⟨1, ![1024]⟩
abbrev S_ : Shape := ⟨0, ![]⟩
abbrev S65536x1 : Shape := ⟨2, ![65536, 1]⟩
abbrev S65536x512 : Shape := ⟨2, ![65536, 512]⟩
abbrev S65536x1024 : Shape := ⟨2, ![65536, 1024]⟩
abbrev S1x1024 : Shape := ⟨2, ![1, 1024]⟩

abbrev nBuf : Space → Nat
  | .hbm => 64
  | .vmem => 0
  | .smem => 0
  | _ => 0

abbrev bufTy : (tb : Table) → Fin (tcTables nBuf tb) → BufTy
  | .hbm, ⟨0, _⟩ => ⟨S65536, .i32⟩
  | .hbm, ⟨1, _⟩ => ⟨S65536, .i32⟩
  | .hbm, ⟨2, _⟩ => ⟨S65536, .i32⟩
  | .hbm, ⟨3, _⟩ => ⟨S50257x512, .f32⟩
  | .hbm, ⟨4, _⟩ => ⟨S512x512, .f32⟩
  | .hbm, ⟨5, _⟩ => ⟨S4096x512, .f32⟩
  | .hbm, ⟨6, _⟩ => ⟨S1024, .f32⟩
  | .hbm, ⟨7, _⟩ => ⟨S1024, .f32⟩
  | .hbm, ⟨8, _⟩ => ⟨S_, .i32⟩
  | .hbm, ⟨9, _⟩ => ⟨S65536, .i32⟩
  | .hbm, ⟨10, _⟩ => ⟨S65536, .i1⟩
  | .hbm, ⟨11, _⟩ => ⟨S_, .i32⟩
  | .hbm, ⟨12, _⟩ => ⟨S65536, .i32⟩
  | .hbm, ⟨13, _⟩ => ⟨S65536, .i32⟩
  | .hbm, ⟨14, _⟩ => ⟨S65536, .i32⟩
  | .hbm, ⟨15, _⟩ => ⟨S65536x1, .i32⟩
  | .hbm, ⟨16, _⟩ => ⟨S65536x512, .f32⟩
  | .hbm, ⟨17, _⟩ => ⟨S_, .i32⟩
  | .hbm, ⟨18, _⟩ => ⟨S65536, .i32⟩
  | .hbm, ⟨19, _⟩ => ⟨S65536, .i1⟩
  | .hbm, ⟨20, _⟩ => ⟨S_, .i32⟩
  | .hbm, ⟨21, _⟩ => ⟨S65536, .i32⟩
  | .hbm, ⟨22, _⟩ => ⟨S65536, .i32⟩
  | .hbm, ⟨23, _⟩ => ⟨S65536, .i32⟩
  | .hbm, ⟨24, _⟩ => ⟨S65536x1, .i32⟩
  | .hbm, ⟨25, _⟩ => ⟨S65536x512, .f32⟩
  | .hbm, ⟨26, _⟩ => ⟨S65536x512, .f32⟩
  | .hbm, ⟨27, _⟩ => ⟨S_, .i32⟩
  | .hbm, ⟨28, _⟩ => ⟨S65536, .i32⟩
  | .hbm, ⟨29, _⟩ => ⟨S65536, .i1⟩
  | .hbm, ⟨30, _⟩ => ⟨S_, .i32⟩
  | .hbm, ⟨31, _⟩ => ⟨S65536, .i32⟩
  | .hbm, ⟨32, _⟩ => ⟨S65536, .i32⟩
  | .hbm, ⟨33, _⟩ => ⟨S65536, .i32⟩
  | .hbm, ⟨34, _⟩ => ⟨S65536x1, .i32⟩
  | .hbm, ⟨35, _⟩ => ⟨S65536x512, .f32⟩
  | .hbm, ⟨36, _⟩ => ⟨S65536x1024, .f32⟩
  | .hbm, ⟨37, _⟩ => ⟨S_, .f32⟩
  | .hbm, ⟨38, _⟩ => ⟨S65536, .f32⟩
  | .hbm, ⟨39, _⟩ => ⟨S65536x1, .f32⟩
  | .hbm, ⟨40, _⟩ => ⟨S_, .f32⟩
  | .hbm, ⟨41, _⟩ => ⟨S65536x1, .f32⟩
  | .hbm, ⟨42, _⟩ => ⟨S65536x1, .f32⟩
  | .hbm, ⟨43, _⟩ => ⟨S65536x1024, .f32⟩
  | .hbm, ⟨44, _⟩ => ⟨S65536x1024, .f32⟩
  | .hbm, ⟨45, _⟩ => ⟨S65536x1024, .f32⟩
  | .hbm, ⟨46, _⟩ => ⟨S_, .f32⟩
  | .hbm, ⟨47, _⟩ => ⟨S65536, .f32⟩
  | .hbm, ⟨48, _⟩ => ⟨S65536x1, .f32⟩
  | .hbm, ⟨49, _⟩ => ⟨S_, .f32⟩
  | .hbm, ⟨50, _⟩ => ⟨S65536x1, .f32⟩
  | .hbm, ⟨51, _⟩ => ⟨S65536x1, .f32⟩
  | .hbm, ⟨52, _⟩ => ⟨S65536x1, .f32⟩
  | .hbm, ⟨53, _⟩ => ⟨S_, .f32⟩
  | .hbm, ⟨54, _⟩ => ⟨S65536x1, .f32⟩
  | .hbm, ⟨55, _⟩ => ⟨S65536x1, .f32⟩
  | .hbm, ⟨56, _⟩ => ⟨S65536x1024, .f32⟩
  | .hbm, ⟨57, _⟩ => ⟨S65536x1024, .f32⟩
  | .hbm, ⟨58, _⟩ => ⟨S1x1024, .f32⟩
  | .hbm, ⟨59, _⟩ => ⟨S65536x1024, .f32⟩
  | .hbm, ⟨60, _⟩ => ⟨S65536x1024, .f32⟩
  | .hbm, ⟨61, _⟩ => ⟨S1x1024, .f32⟩
  | .hbm, ⟨62, _⟩ => ⟨S65536x1024, .f32⟩
  | .hbm, ⟨63, _⟩ => ⟨S65536x1024, .f32⟩
  | _, _ => ⟨S65536, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c_1 : Ref sig .tc := ⟨.hbm, 17, rfl⟩
abbrev main_v7 : Ref sig .tc := ⟨.hbm, 18, rfl⟩
abbrev main_v8 : Ref sig .tc := ⟨.hbm, 19, rfl⟩
abbrev main_c_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_c_3 : Ref sig .tc := ⟨.hbm, 27, rfl⟩
abbrev main_v15 : Ref sig .tc := ⟨.hbm, 28, rfl⟩
abbrev main_v16 : Ref sig .tc := ⟨.hbm, 29, rfl⟩
abbrev main_c_4 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst : Ref sig .tc := ⟨.hbm, 37, rfl⟩
abbrev main_v23 : Ref sig .tc := ⟨.hbm, 38, rfl⟩
abbrev main_v24 : Ref sig .tc := ⟨.hbm, 39, rfl⟩
abbrev main_cst_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_6 : Ref sig .tc := ⟨.hbm, 46, rfl⟩
abbrev main_v30 : Ref sig .tc := ⟨.hbm, 47, rfl⟩
abbrev main_v31 : Ref sig .tc := ⟨.hbm, 48, rfl⟩
abbrev main_cst_7 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩

abbrev nD : Nat := 1
abbrev τ : Topo := Topo.v7x

variable {F : FTy → Type} [FloatOps F]

class Facts₀ : Prop where
  bcast_S_S65536 : S_.BroadcastsInDim S65536 (![] : Fin 0 → Fin S65536.rank)
  bcast_S65536_S65536x1_0 : S65536.BroadcastsInDim S65536x1 (![0] : Fin 1 → Fin S65536x1.rank)
  concatenates_S65536x512_S65536x512_S65536x1024_d1 : Shape.Concatenates [S65536x512, S65536x512] S65536x1024 1
  reducesTo_S65536x1024_S65536_d1 : S65536x1024.ReducesTo [1] S65536
  h_S_ : 0 < S_.numel
  bcast_S_S65536x1 : S_.BroadcastsInDim S65536x1 (![] : Fin 0 → Fin S65536x1.rank)
  bcast_S65536x1_S65536x1024_0_1 : S65536x1.BroadcastsInDim S65536x1024 (![0, 1] : Fin 2 → Fin S65536x1024.rank)
  bcast_S1024_S1x1024_1 : S1024.BroadcastsInDim S1x1024 (![1] : Fin 1 → Fin S1x1024.rank)
  bcast_S1x1024_S65536x1024_0_1 : S1x1024.BroadcastsInDim S65536x1024 (![0, 1] : Fin 2 → Fin S65536x1024.rank)
  gather_S50257x512_S65536x1_S65536x512_1_0_n_n_0_1_1512_wf : GatherDims.WF S50257x512 S65536x1 S65536x512 [1] [0] [] [0] [] 1 ![1, 512]
  gather_S512x512_S65536x1_S65536x512_1_0_n_n_0_1_1512_wf : GatherDims.WF S512x512 S65536x1 S65536x512 [1] [0] [] [0] [] 1 ![1, 512]
  gather_S4096x512_S65536x1_S65536x512_1_0_n_n_0_1_1512_wf : GatherDims.WF S4096x512 S65536x1 S65536x512 [1] [0] [] [0] [] 1 ![1, 512]

variable [Facts₀]

def gather_S50257x512_S65536x1_S65536x512_1_0_n_n_0_1_1512 : GatherDims S50257x512 S65536x1 S65536x512 where
  offsetDims := [1]
  collapsedSliceDims := [0]
  operandBatchingDims := []
  startIndicesBatchingDims := []
  startIndexMap := [0]
  indexVectorDim := 1
  sliceSizes := ![1, 512]
  wf := gather_S50257x512_S65536x1_S65536x512_1_0_n_n_0_1_1512_wf
def gather_S512x512_S65536x1_S65536x512_1_0_n_n_0_1_1512 : GatherDims S512x512 S65536x1 S65536x512 where
  offsetDims := [1]
  collapsedSliceDims := [0]
  operandBatchingDims := []
  startIndicesBatchingDims := []
  startIndexMap := [0]
  indexVectorDim := 1
  sliceSizes := ![1, 512]
  wf := gather_S512x512_S65536x1_S65536x512_1_0_n_n_0_1_1512_wf
def gather_S4096x512_S65536x1_S65536x512_1_0_n_n_0_1_1512 : GatherDims S4096x512 S65536x1 S65536x512 where
  offsetDims := [1]
  collapsedSliceDims := [0]
  operandBatchingDims := []
  startIndicesBatchingDims := []
  startIndexMap := [0]
  indexVectorDim := 1
  sliceSizes := ![1, 512]
  wf := gather_S4096x512_S65536x1_S65536x512_1_0_n_n_0_1_1512_wf

class Facts : Prop extends Facts₀ where

variable [Facts]
-- ==== Proof.RowNorm.lean ====
/-
  The mathematics of one row, and the whole-array function both programs compute.

  A row of 1024 extended reals is given as its two halves `c`, `t` of 512 entries each. Its MEAN is the sum of all
  1024 entries times 1/1024; its SPREAD is the square root of the sum of the squared deviations from the mean times
  1/1023, plus a fixed offset `eps`; the row's entry `x` is sent to `(x − mean) / spread · a + b`, with `a`, `b` the
  scale and shift of the entry's lane.

  One program sums each half by itself and adds the two half sums, and multiplies by the reciprocals 1/1024 and
  1/1023; the other joins the halves into one row of 1024, sums that, and divides by 1024 and 1023. A sum over the
  joined row is the sum over the left half plus the sum over the right half in any additive commutative monoid
  (`sum_joined`), and on the extended reals division by a nonzero real is multiplication by its reciprocal at every
  argument, the infinities included: so the two readings are one function with no finiteness asked of the entries
  (`meanW_joined`, `spreadW_joined`, `entryW_joined`).
-/
import Idealize.ShloMosaic.PureOps.Ideal
import Idealize.ShloMosaic.PureOps.Ideal.Laws
import Idealize.ShloMosaic.Lib.ValueIdx

noncomputable section

open scoped BigOperators
open Idealize.ShloMosaic Idealize.ShloMosaic.ValueIdx

namespace Cert.RowNorm

/-! ## The two divisors' words -/

/-- The word `0x44800000` is the real 1024. -/
theorem ofBits_1024 : Ideal.ofBits .f32 0x44800000#32 = ((1024 : ℝ) : EReal) := by
  simp [Ideal.ofBits, Ideal.ieee, -EReal.coe_mul]; norm_num

/-- The word `0x447FC000` is the real 1023. -/
theorem ofBits_1023 : Ideal.ofBits .f32 0x447FC000#32 = ((1023 : ℝ) : EReal) := by
  simp [Ideal.ofBits, Ideal.ieee, -EReal.coe_mul]; norm_num

/-! ## One row, as two halves -/

/-- The offset added to the spread: the value of the word both programs carry for it. It is never evaluated. -/
def eps : EReal := Ideal.ofBits .f32 0x3A83126F#32

/-- The mean of the row with halves `c`, `t`: the two half sums added, times 1/1024. -/
def mean (c t : Fin 512 → EReal) : EReal := (∑ j, c j + ∑ j, t j) * ((1 / 1024 : ℝ) : EReal)

/-- The spread of the row: the root of the squared deviations' sum (over both halves) times 1/1023, plus `eps`. -/
def spread (c t : Fin 512 → EReal) : EReal :=
  Ideal.sqrt ((∑ j, (c j - mean c t) * (c j - mean c t) + ∑ j, (t j - mean c t) * (t j - mean c t))
    * ((1 / 1023 : ℝ) : EReal)) + eps

/-- The row's entry `x` normalised, then scaled by `a` and shifted by `b`. -/
def entry (c t : Fin 512 → EReal) (x a b : EReal) : EReal :=
  Ideal.div (x - mean c t) (spread c t) * a + b

/-! ## The joined row -/

/-- The row of 1024 entries whose first 512 are `c` and whose last 512 are `t`. -/
def joined (c t : Fin 512 → EReal) : Fin 1024 → EReal := fun k =>
  if h : k.val < 512 then c ⟨k.val, h⟩ else t ⟨k.val - 512, by have := k.isLt; omega⟩

theorem joined_left (c t : Fin 512 → EReal) (j : Fin 512) : joined c t (Fin.castAdd 512 j) = c j := by
  unfold joined
  rw [dif_pos (show (Fin.castAdd 512 j).val < 512 from j.isLt)]
  rfl

theorem joined_right (c t : Fin 512 → EReal) (j : Fin 512) : joined c t (Fin.natAdd 512 j) = t j := by
  unfold joined
  have h : ¬ (Fin.natAdd 512 j).val < 512 := by simp [Fin.natAdd]
  rw [dif_neg h]
  exact congrArg t (Fin.ext (by simp [Fin.natAdd]))

/-- A sum over the joined row is the left half's sum plus the right half's, whatever is applied to the entries. -/
theorem sum_joined (φ : EReal → EReal) (c t : Fin 512 → EReal) :
    ∑ k : Fin 1024, φ (joined c t k) = ∑ j, φ (c j) + ∑ j, φ (t j) := by
  refine (Fin.sum_univ_add (a := 512) (b := 512) (fun k => φ (joined c t k))).trans ?_
  exact congrArg₂ (· + ·) (Finset.sum_congr rfl fun j _ => congrArg φ (joined_left c t j))
    (Finset.sum_congr rfl fun j _ => congrArg φ (joined_right c t j))

/-! ## The same row read whole: sums over 1024 entries from zero, divisions by 1024 and 1023 -/

/-- The mean as a quotient: zero plus the sum of the 1024 entries, divided by the word for 1024. -/
def meanW (z : Fin 1024 → EReal) : EReal := Ideal.div (0 + ∑ k, z k) (Ideal.ofBits .f32 0x44800000#32)

/-- The spread as a quotient: the squared deviations summed from zero, divided by the word for 1023, rooted, plus `eps`. -/
def spreadW (z : Fin 1024 → EReal) : EReal :=
  Ideal.sqrt (Ideal.div (0 + ∑ k, (z k - meanW z) * (z k - meanW z)) (Ideal.ofBits .f32 0x447FC000#32)) + eps

/-- The entry `x` of the whole row normalised, scaled and shifted. -/
def entryW (z : Fin 1024 → EReal) (x a b : EReal) : EReal :=
  Ideal.div (x - meanW z) (spreadW z) * a + b

/-- Dividing the whole row's sum by 1024 is adding the half sums and multiplying by 1/1024. -/
theorem meanW_joined (c t : Fin 512 → EReal) : meanW (joined c t) = mean c t := by
  unfold meanW mean
  rw [zero_add, sum_joined (fun x => x) c t, ofBits_1024, Ideal.div_coe (by norm_num : (1024 : ℝ) ≠ 0)]

theorem spreadW_joined (c t : Fin 512 → EReal) : spreadW (joined c t) = spread c t := by
  unfold spreadW spread
  rw [zero_add, meanW_joined, sum_joined (fun x => (x - mean c t) * (x - mean c t)) c t, ofBits_1023,
    Ideal.div_coe (by norm_num : (1023 : ℝ) ≠ 0)]

theorem entryW_joined (c t : Fin 512 → EReal) (x a b : EReal) : entryW (joined c t) x a b = entry c t x a b := by
  unfold entryW entry
  rw [meanW_joined, spreadW_joined]

/-! ## The whole array -/

section Array
variable {R : Nat}

/-- Row `r`'s left half: the two summed tables' rows added, lane by lane. -/
def lhalf (g0 g1 : (⟨2, ![R, 512]⟩ : Shape).Idx → EReal) (r : Fin R) : Fin 512 → EReal :=
  fun j => g0 (ix2 r j) + g1 (ix2 r j)

/-- Row `r`'s right half: the third table's row. -/
def rhalf (g2 : (⟨2, ![R, 512]⟩ : Shape).Idx → EReal) (r : Fin R) : Fin 512 → EReal :=
  fun j => g2 (ix2 r j)

/-- The result at row `r`, lane `k`: the joined row's entry `k` normalised within its row, scaled by `a k`, shifted by `b k`. -/
def at_ (g0 g1 g2 : (⟨2, ![R, 512]⟩ : Shape).Idx → EReal) (a b : (⟨1, ![1024]⟩ : Shape).Idx → EReal)
    (r : Fin R) (k : Fin 1024) : EReal :=
  entry (lhalf g0 g1 r) (rhalf g2 r) (joined (lhalf g0 g1 r) (rhalf g2 r) k) (a (ix1 k)) (b (ix1 k))

/-- THE RESULT ARRAY of `R` rows as one function of the three `R × 512` arrays and the scale and shift vectors. -/
def G (g0 g1 g2 : (⟨2, ![R, 512]⟩ : Shape).Idx → EReal) (a b : (⟨1, ![1024]⟩ : Shape).Idx → EReal) :
    (⟨2, ![R, 1024]⟩ : Shape).Idx → EReal :=
  fun i => at_ g0 g1 g2 a b (i 0) (i 1)

theorem G_ix2 (g0 g1 g2 : (⟨2, ![R, 512]⟩ : Shape).Idx → EReal) (a b : (⟨1, ![1024]⟩ : Shape).Idx → EReal)
    (r : Fin R) (k : Fin 1024) : G g0 g1 g2 a b (ix2 r k) = at_ g0 g1 g2 a b r k := rfl

end Array

end Cert.RowNorm

end
-- ==== Proof.LibColumn.lean ====
/-
  A column broadcast along rows, read at an index.

  An `[a, 1]` array broadcast to `[a, b]` repeats each row's one entry across the row: at `(p, c)` it reads the
  operand at `(p, 0)`.
-/
import Idealize.ShloMosaic.Lib.Pipeline.Value
import Idealize.ShloMosaic.Lib.ValueIdx

noncomputable section

namespace Idealize.ShloMosaic.ColumnBroadcast

open Idealize.ShloMosaic Idealize.ShloMosaic.ValueIdx

/-- An `[a, 1]` array broadcast to `[a, b]` reads, at `(p, c)`, the operand's row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ColumnBroadcast

end
-- ==== Proof.LibColumnCast.lean ====
/-
  A vector of length n and the column [n, 1] that holds the same elements: a shape cast between the two keeps
  every element's row-major position, which is i for the vector's element i and i · 1 + 0 for the column's
  element (i, 0). So the cast to a column reads the vector at the row coordinate, and the cast back reads the
  column at (i, 0).
-/
import Idealize.ShloMosaic.Lib.ValueIdx
import Idealize.ShloMosaic.Lib.Pipeline.Value
import Idealize.ShloMosaic.Lib.ValueLayout

namespace Idealize.ShloMosaic.ColumnCast

open Idealize.ShloMosaic Idealize.ShloMosaic.ValueIdx

/-- A vector of length n cast to a column [n, 1] reads, at (i, u), the vector at i, whatever the unit
    coordinate u: the row-major positions are i · 1 + u with u = 0, and i. -/
theorem shapeCast_col_apply {α : Type} {n : ℕ} (x : (⟨1, ![n]⟩ : Shape).Idx → α)
    (h : (⟨1, ![n]⟩ : Shape).ShapeCasts (⟨2, ![n, 1]⟩ : Shape)) (i : Fin n) (u : Fin 1) :
    shapeCast (⟨2, ![n, 1]⟩ : Shape) x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [n, 1] cast to a vector of length n reads, at i, the column at (i, 0): the row-major positions
    are i · 1 + 0 and i. -/
theorem shapeCast_uncol_apply {α : Type} {n : ℕ} (x : (⟨2, ![n, 1]⟩ : Shape).Idx → α)
    (h : (⟨2, ![n, 1]⟩ : Shape).ShapeCasts (⟨1, ![n]⟩ : Shape)) (i : Fin n) :
    shapeCast (⟨1, ![n]⟩ : Shape) x h (ix1 i) = x (ix2 i (0 : Fin 1)) :=
  shapeCast_apply x h _ _ (by
    rw [Shape.rowMajor_val_two, Shape.rowMajor_val_one]
    show i.val * 1 + 0 = i.val
    rw [Nat.mul_one, Nat.add_zero])

end Idealize.ShloMosaic.ColumnCast
-- ==== Proof.KernelBlock.lean ====
/-
  What one grid point's body leaves in its output block is the row-normalising function G of its input blocks.

  The body holds three 512 x 512 blocks x0, x1, x2 and the scale and shift vectors x3, x4 of 1024 lanes. A row p of the
  result has 1024 lanes: its left half comes from the row p of x0 + x1, its right half from the row p of x2. The body
  forms the row's mean as (sum of the left half + sum of the right half) times 1/1024, subtracts it from both halves,
  forms the spread as the root of (sum of the squared left deviations + sum of the squared right deviations) times
  1/1023 plus a fixed offset, and writes (deviation / spread) * scale + shift: the left half into lanes 0..511 with
  scale and shift lanes 0..511, the right half into lanes 512..1023 with scale and shift lanes 512..1023.

  Each intermediate array is read here at one index. Pointwise operations read through to their operands at the same
  index. A lane sum over axis 1 read at row p is the sum over the 512 lanes of that row. A vector of 512 entries cast
  to a column reads its entry at the row coordinate; a column repeated across a row's lanes reads the row's one entry;
  a vector laid as one row and repeated down the rows reads its entry at the lane coordinate; a slice of a vector
  starting at o reads the vector at o + lane. The two reciprocals are the reals 1/1024 and 1/1023 the constants'
  names carry. Put together, lane q of row p of the left store is `entry` of the left-half element, lane q of the
  right store is `entry` of the right-half element, both with row p's mean and spread; the two stores' rectangles
  place them at lanes q and 512 + q of the block, where the joined row has exactly those elements.
-/
import proofs.«181638_j24902220382934_2_alg».proof.Proof.Gen.KernelIdeal.Frame
import proofs.«181638_j24902220382934_2_alg».proof.Proof.RowNorm
import proofs.«181638_j24902220382934_2_alg».proof.Proof.LibColumn
import proofs.«181638_j24902220382934_2_alg».proof.Proof.LibColumnCast
import Idealize.ShloMosaic.Lib.Pipeline.Value
import Idealize.ShloMosaic.Lib.ValueLayout
import Idealize.ShloMosaic.Lib.ValueIdx
import Idealize.ShloMosaic.PureOps.Ideal.Laws

noncomputable section

namespace Cert.KernelBlock

open Cert.KernelIdeal Cert.KernelIdeal.Gen Idealize.ShloMosaic Idealize.ShloMosaic.ValueIdx
open Cert.RowNorm
open scoped BigOperators

/-! ## Sums along a row -/

/-- A sum over axis 1 of a 512 x 512 array, read at row `p`: the sum of the row's 512 entries. The index the
    reduction inserts lane `k` into, at row `p`, has coordinates `(p, k)`. -/
theorem rowSum (src : FVec Ideal S512x512 .f32) (h : S512x512.Reduces [1] S512) (hφ : FKind.Formats .f32)
    (hacc : (0x00000000#32 : BitVec 32) = 0x00000000#32) (p : Fin 512) :
    multiReduction (F := Ideal) .add [1] S512 src 0x00000000#32 h hφ hacc (ix1 p) = ∑ k : Fin 512, src (ix2 p k) := by
  refine (Ideal.multiReduction_add_single src 0x00000000#32 h hφ hacc (ix1 p)).trans ?_
  refine Finset.sum_congr rfl fun k _ => congrArg src (funext fun a => ?_)
  match a with
  | ⟨0, _⟩ => rfl
  | ⟨1, _⟩ => rfl

/-- The same sum kept as a column of 512 rows and one lane: at `(p, u)` it is still row `p`'s sum. -/
theorem colSum (src : FVec Ideal S512x512 .f32) (h : S512x512.Reduces [1] S512) (hφ : FKind.Formats .f32)
    (hacc : (0x00000000#32 : BitVec 32) = 0x00000000#32) (hc : S512.ShapeCasts S512x1) (p : Fin 512) (u : Fin 1) :
    shapeCast S512x1 (multiReduction (F := Ideal) .add [1] S512 src 0x00000000#32 h hφ hacc) hc (ix2 p u)
      = ∑ k : Fin 512, src (ix2 p k) :=
  (ColumnCast.shapeCast_col_apply _ hc p u).trans (rowSum src h hφ hacc p)

/-! ## The two named reciprocals and the root -/

/-- The constant named for the reciprocal of 1024 is the real 1/1024. -/
theorem inv1024 : Named.named (F := Ideal) Cert.KernelIdeal.κ "a_exact_inv_1024" (φ := .f32) 0x3A800000#32
    = ((1 / 1024 : ℝ) : EReal) :=
  IdealRules.named_const.ideal_named_scalar _ _ _ _ rfl

/-- The constant named for the reciprocal of 1023 is the real 1/1023. -/
theorem inv1023 : Named.named (F := Ideal) Cert.KernelIdeal.κ "inv_1023" (φ := .f32) 0x3A802008#32
    = ((1 / 1023 : ℝ) : EReal) :=
  IdealRules.named_const.ideal_named_scalar _ _ _ _ rfl

/-- A square root of an array read at an index is the extended reals' root of the element there. -/
theorem sqrt_apply {s : Shape} {φ : FTy} (v : FVec Ideal s φ) (i : s.Idx) :
    Idealize.ShloMosaic.sqrt v i = Ideal.sqrt (v i) := rfl

/-! ## Vectors of 1024 lanes cut in halves and laid across the rows -/

/-- A slice of 512 entries of a vector of 1024 starting at `o`, read at `q`: the vector at `o + q`. -/
theorem slice_apply (o : Nat) (x : FVec Ideal S1024 .f32) (h : S1024.Slices ![o] S512) (q : Fin 512) (k : Fin 1024)
    (hk : k.val = o + q.val) : extractStridedSlice S512 ![o] x h (ix1 q) = x (ix1 k) :=
  extractStridedSlice_apply _ x h (ix1 q) (ix1 k) fun a => by
    match a with
    | ⟨0, _⟩ => exact hk

/-- A vector of 512 entries laid as one row and repeated down 512 rows, read at `(p, q)`: the vector at `q`. -/
theorem rowBroadcast_apply (v : FVec Ideal S512 .f32) (hc : S512.ShapeCasts S1x512) (hb : S1x512.Broadcasts S512x512)
    (p q : Fin 512) : broadcastTo S512x512 (shapeCast S1x512 v hc) hb (ix2 p q) = v (ix1 q) :=
  (broadcastTo_1b_ab_apply _ hb p q).trans (shapeCast_a_1a_apply v hc 0 q)

/-! ## The body's intermediate arrays, each at one index -/

/-- The left half before centring: the two summed blocks added, entry by entry. -/
theorem pay2_apply (x0 x1 : FVec Ideal S512x512 .f32) (p q : Fin 512) :
    k0_pay2 (F := Ideal) x0 x1 (ix2 p q) = x0 (ix2 p q) + x1 (ix2 p q) := by
  unfold k0_pay2
  simp only [shapeCast_self]
  rfl

/-- The right half before centring is the third block itself. -/
theorem pay3_eq (x2 : FVec Ideal S512x512 .f32) : k0_pay3 (F := Ideal) x2 = x2 := by
  unfold k0_pay3
  exact shapeCast_self _ _

/-- The column of means at row `p`: the left half's sum plus the right half's sum, times 1/1024. -/
theorem pay4_apply (x0 x1 x2 : FVec Ideal S512x512 .f32) (p : Fin 512) (u : Fin 1) :
    k0_pay4 (F := Ideal) x0 x1 x2 (ix2 p u) = mean (lhalf x0 x1 p) (rhalf x2 p) := by
  unfold k0_pay4 mean
  simp only [mulf_apply, addf_apply, broadcast_apply]
  refine congrArg₂ (· * ·) (congrArg₂ (· + ·) ?_ ?_) inv1024
  · refine (colSum _ _ _ _ _ p u).trans (Finset.sum_congr rfl fun k _ => pay2_apply x0 x1 p k)
  · refine (colSum _ _ _ _ _ p u).trans (Finset.sum_congr rfl fun k _ => ?_)
    rw [pay3_eq]; rfl

/-- The centred left half at `(p, q)`: the left-half entry minus row `p`'s mean. -/
theorem pay5_apply (x0 x1 x2 : FVec Ideal S512x512 .f32) (p q : Fin 512) :
    k0_pay5 (F := Ideal) x0 x1 x2 (ix2 p q) = lhalf x0 x1 p q - mean (lhalf x0 x1 p) (rhalf x2 p) := by
  unfold k0_pay5
  simp only [subf_apply]
  refine congrArg₂ (· - ·) (pay2_apply x0 x1 p q) ?_
  exact (ColumnBroadcast.broadcastTo_a1_ab_apply _ _ p q).trans (pay4_apply x0 x1 x2 p 0)

/-- The centred right half at `(p, q)`: the right-half entry minus row `p`'s mean. -/
theorem pay6_apply (x0 x1 x2 : FVec Ideal S512x512 .f32) (p q : Fin 512) :
    k0_pay6 (F := Ideal) x0 x1 x2 (ix2 p q) = rhalf x2 p q - mean (lhalf x0 x1 p) (rhalf x2 p) := by
  unfold k0_pay6
  simp only [subf_apply]
  refine congrArg₂ (· - ·) ?_ ?_
  · rw [pay3_eq]; rfl
  · exact (ColumnBroadcast.broadcastTo_a1_ab_apply _ _ p q).trans (pay4_apply x0 x1 x2 p 0)

/-- The column of spreads at row `p`: the root of the two halves' squared deviations summed, times 1/1023, plus
    the offset. The offset's word is carried as it is on both sides and never evaluated. -/
theorem pay7_apply (x0 x1 x2 : FVec Ideal S512x512 .f32) (p : Fin 512) (u : Fin 1) :
    k0_pay7 (F := Ideal) x0 x1 x2 (ix2 p u) = spread (lhalf x0 x1 p) (rhalf x2 p) := by
  unfold k0_pay7 spread eps
  simp only [addf_apply, mulf_apply, broadcast_apply, sqrt_apply]
  refine congrArg₂ (· + ·) (congrArg Ideal.sqrt (congrArg₂ (· * ·) (congrArg₂ (· + ·) ?_ ?_) inv1023)) rfl
  · refine (colSum _ _ _ _ _ p u).trans (Finset.sum_congr rfl fun k _ => ?_)
    show k0_pay5 (F := Ideal) x0 x1 x2 (ix2 p k) * k0_pay5 (F := Ideal) x0 x1 x2 (ix2 p k) = _
    rw [pay5_apply]
  · refine (colSum _ _ _ _ _ p u).trans (Finset.sum_congr rfl fun k _ => ?_)
    show k0_pay6 (F := Ideal) x0 x1 x2 (ix2 p k) * k0_pay6 (F := Ideal) x0 x1 x2 (ix2 p k) = _
    rw [pay6_apply]

/-- The upper half of the scale vector at `q`: the vector at lane `512 + q`. -/
theorem pay8_apply (x3 : FVec Ideal S1024 .f32) (q : Fin 512) (k : Fin 1024) (hk : k.val = 512 + q.val) :
    k0_pay8 (F := Ideal) x3 (ix1 q) = x3 (ix1 k) := by
  unfold k0_pay8
  exact slice_apply 512 x3 _ q k hk

/-- The upper half of the shift vector at `q`: the vector at lane `512 + q`. -/
theorem pay9_apply (x4 : FVec Ideal S1024 .f32) (q : Fin 512) (k : Fin 1024) (hk : k.val = 512 + q.val) :
    k0_pay9 (F := Ideal) x4 (ix1 q) = x4 (ix1 k) := by
  unfold k0_pay9
  exact slice_apply 512 x4 _ q k hk

/-- What is stored into lanes 0..511, at `(p, q)`: the left-half entry normalised within row `p`, scaled and
    shifted by lane `q` of the two vectors (`k` is that lane as one of the 1024). -/
theorem pay10_apply (x0 x1 x2 : FVec Ideal S512x512 .f32) (x3 x4 : FVec Ideal S1024 .f32) (p q : Fin 512)
    (k : Fin 1024) (hk : k.val = q.val) :
    k0_pay10 (F := Ideal) x0 x1 x2 x3 x4 (ix2 p q)
      = entry (lhalf x0 x1 p) (rhalf x2 p) (lhalf x0 x1 p q) (x3 (ix1 k)) (x4 (ix1 k)) := by
  unfold k0_pay10 entry
  simp only [addf_apply, mulf_apply, divf_apply]
  refine congrArg₂ (· + ·) (congrArg₂ (· * ·) (congrArg₂ Ideal.div (pay5_apply x0 x1 x2 p q) ?_) ?_) ?_
  · exact (ColumnBroadcast.broadcastTo_a1_ab_apply _ _ p q).trans (pay7_apply x0 x1 x2 p 0)
  · exact (rowBroadcast_apply _ _ _ p q).trans (slice_apply 0 x3 _ q k (hk.trans (Nat.zero_add _).symm))
  · exact (rowBroadcast_apply _ _ _ p q).trans (slice_apply 0 x4 _ q k (hk.trans (Nat.zero_add _).symm))

/-- The last store's arithmetic over any operands, at `(p, q)`: the first operand divided by the column's entry of
    row `p`, times the third at `q`, plus the fourth at `q`. -/
theorem pay1_apply (v17 : FVec Ideal S512x512 .f32) (v29 : FVec Ideal S512x1 .f32) (v33 v35 : FVec Ideal S512 .f32)
    (p q : Fin 512) :
    k0_pay1 (F := Ideal) v17 v29 v33 v35 (ix2 p q)
      = Ideal.div (v17 (ix2 p q)) (v29 (ix2 p (0 : Fin 1))) * v33 (ix1 q) + v35 (ix1 q) := by
  unfold k0_pay1
  simp only [addf_apply, mulf_apply, divf_apply]
  refine congrArg₂ (· + ·) (congrArg₂ (· * ·) (congrArg₂ Ideal.div rfl ?_) ?_) ?_
  · exact ColumnBroadcast.broadcastTo_a1_ab_apply _ _ p q
  · exact rowBroadcast_apply _ _ _ p q
  · exact rowBroadcast_apply _ _ _ p q

/-- What is stored into lanes 512..1023, at `(p, q)`: the right-half entry normalised within row `p`, scaled and
    shifted by lane `512 + q` of the two vectors (`k` is that lane). -/
theorem right_apply (x0 x1 x2 : FVec Ideal S512x512 .f32) (x3 x4 : FVec Ideal S1024 .f32) (p q : Fin 512)
    (k : Fin 1024) (hk : k.val = 512 + q.val) :
    k0_pay1 (F := Ideal) (k0_pay6 x0 x1 x2) (k0_pay7 x0 x1 x2) (k0_pay8 x3) (k0_pay9 x4) (ix2 p q)
      = entry (lhalf x0 x1 p) (rhalf x2 p) (rhalf x2 p q) (x3 (ix1 k)) (x4 (ix1 k)) := by
  refine (pay1_apply _ _ _ _ p q).trans ?_
  unfold entry
  rw [pay6_apply, pay7_apply, pay8_apply x3 q k hk, pay9_apply x4 q k hk]

/-! ## The joined row at a lane of either half -/

/-- A lane below 512 of the joined row holds the left half's entry. -/
theorem joined_lo (c t : Fin 512 → EReal) (q : Fin 512) (k : Fin 1024) (hk : k.val = q.val) : joined c t k = c q := by
  unfold joined
  have h : k.val < 512 := by have := q.isLt; omega
  rw [dif_pos h]
  exact congrArg c (Fin.ext hk)

/-- Lane `512 + q` of the joined row holds the right half's entry `q`. -/
theorem joined_hi (c t : Fin 512 → EReal) (q : Fin 512) (k : Fin 1024) (hk : k.val = 512 + q.val) :
    joined c t k = t q := by
  unfold joined
  have h : ¬ k.val < 512 := by omega
  rw [dif_neg h]
  exact congrArg t (Fin.ext (by show k.val - 512 = q.val; omega))

/-! ## Where the two stores land in the block -/

/-- The rectangle of the first 512 lanes places its local `(p, q)` at the block's `(p, q)`: each coordinate is
    the offset 0 plus one times the local coordinate. -/
theorem emb_left (p q : Fin 512) (k : Fin 1024) (hk : k.val = q.val) :
    r0_2.emb (ix2 p q : S512x512.Idx) = ix2 p k := by
  funext a
  refine Fin.ext ?_
  match a with
  | ⟨0, _⟩ => show 0 + 1 * p.val = p.val; omega
  | ⟨1, _⟩ => show 0 + 1 * q.val = k.val; omega

/-- The rectangle of the last 512 lanes places its local `(p, q)` at the block's `(p, 512 + q)`: the lane offset
    is 512. -/
theorem emb_right (p q : Fin 512) (k : Fin 1024) (hk : k.val = 512 + q.val) :
    r0_3.emb (ix2 p q : S512x512.Idx) = ix2 p k := by
  funext a
  refine Fin.ext ?_
  match a with
  | ⟨0, _⟩ => show 0 + 1 * p.val = p.val; omega
  | ⟨1, _⟩ => show 512 + 1 * q.val = k.val; omega

/-- The store into the first 512 lanes is G under its rectangle. -/
theorem left_piece (x0 x1 x2 : FVec Ideal S512x512 .f32) (x3 x4 : FVec Ideal S1024 .f32) (x : S512x512.Idx) :
    k0_pay10 (F := Ideal) x0 x1 x2 x3 x4 x = G (R := 512) x0 x1 x2 x3 x4 (r0_2.emb x) := by
  obtain ⟨p, q, rfl⟩ : ∃ (p : Fin 512) (q : Fin 512), x = ix2 p q := ⟨x 0, x 1, eq_ix2 x⟩
  have hq : q.val < 1024 := by have := q.isLt; omega
  rw [emb_left p q ⟨q.val, hq⟩ rfl, G_ix2]
  unfold at_
  rw [joined_lo _ _ q ⟨q.val, hq⟩ rfl]
  exact pay10_apply x0 x1 x2 x3 x4 p q ⟨q.val, hq⟩ rfl

/-- The store into the last 512 lanes is G under its rectangle. -/
theorem right_piece (x0 x1 x2 : FVec Ideal S512x512 .f32) (x3 x4 : FVec Ideal S1024 .f32) (x : S512x512.Idx) :
    k0_pay1 (F := Ideal) (k0_pay6 x0 x1 x2) (k0_pay7 x0 x1 x2) (k0_pay8 x3) (k0_pay9 x4) x
      = G (R := 512) x0 x1 x2 x3 x4 (r0_3.emb x) := by
  obtain ⟨p, q, rfl⟩ : ∃ (p : Fin 512) (q : Fin 512), x = ix2 p q := ⟨x 0, x 1, eq_ix2 x⟩
  have hq : 512 + q.val < 1024 := by have := q.isLt; omega
  rw [emb_right p q ⟨512 + q.val, hq⟩ rfl, G_ix2]
  unfold at_
  rw [joined_hi _ _ q ⟨512 + q.val, hq⟩ rfl]
  exact right_apply x0 x1 x2 x3 x4 p q ⟨512 + q.val, hq⟩ rfl

/-! ## The block -/

/-- The output block after the body: the loads through the whole-buffer rectangles read the input blocks themselves,
    the two stores are each G under their rectangle, and together the rectangles cover the block; so the block is G
    at every index. -/
theorem out_block (x0 x1 x2 : Vec Ideal S512x512 .f32) (x3 x4 : Vec Ideal S1024 .f32) :
    out0_5 (F := Ideal) x0 x1 x2 x3 x4 = Cert.RowNorm.G (R := 512) x0 x1 x2 x3 x4 := by
  have hz2 : (![0, 0] : Fin 2 → Nat) = fun _ => 0 := funext fun a => by fin_cases a <;> rfl
  have hz1 : (![0] : Fin 1 → Nat) = fun _ => 0 := funext fun a => by fin_cases a <;> rfl
  unfold out0_5
  simp only [View.ld_unit_zero (S := S512x512) hz2, View.ld_unit_zero (S := S1024) hz1]
  funext y
  refine View.canon_apply_of_pieces (Val := Elt Ideal) (S := S512x1024) (e := .f32)
    (Cert.RowNorm.G (R := 512) x0 x1 x2 x3 x4) _ ?_ y (cover0_5 (F := Ideal) _ _ y)
  intro pc hpc
  rcases List.mem_cons.mp hpc with rfl | hpc
  · exact fun x => right_piece x0 x1 x2 x3 x4 x
  · obtain rfl := List.mem_singleton.mp hpc
    exact fun x => left_piece x0 x1 x2 x3 x4 x

end Cert.KernelBlock

end
-- ==== Proof.KernelArray.lean ====
/-
  From the kernel's blocks to its result array.

  The kernel runs on a grid of 128 points. At point `t` its three [512, 512] input blocks are rows
  `512 t … 512 t + 511` of the three gathered [65536, 512] arrays, its two [1024] vectors are the whole scale and shift
  vectors, and what it writes back is rows `512 t … 512 t + 511` of the [65536, 1024] result. Every row of the result
  depends on that same row of the three arrays only, so the block the body computes from its input blocks is the
  block of ONE whole-array function (`RowNorm.G`) of the arrays; the 128 blocks tile the result (row `r` is in the
  block of point `r / 512`), so the result array ends holding that function.

  The three arrays are what the program's host operations before the kernel leave: each is a table's rows gathered at an
  index vector (a negative index first has the table's length added). Those operations are kept as three named
  terms (`rows0`, `rows1`, `rows2`) and never opened. The program returns the third of them as its second result.
-/
import proofs.«181638_j24902220382934_2_alg».proof.Proof.Gen.KernelIdeal.Value
import proofs.«181638_j24902220382934_2_alg».proof.Proof.RowNorm
import proofs.«181638_j24902220382934_2_alg».proof.Proof.KernelBlock
import Idealize.ShloMosaic.Lib.Pipeline.Value
import Idealize.ShloMosaic.Lib.StableHlo.Run
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelArray

open Cert.KernelIdeal Cert.KernelIdeal.Gen Cert.KernelIdeal.Value Cert.RowNorm

/-! ## The host operations before the kernel, as three named terms -/

/-- An index vector with every negative index raised by the table's length `n`, as a column. -/
def wrapped (n : BitVec 32) (x : (⟨S65536, .i32⟩ : BufTy).Contents (Elt Ideal)) : (⟨S65536x1, .i32⟩ : BufTy).Contents (Elt Ideal) :=
  broadcastInDim S65536x1 ![0] bcast_S65536_S65536x1_0
    (select (cmpi .slt x (broadcastInDim S65536 ![] bcast_S_S65536 (constantI S_ 32 0#32)))
      (addi x (broadcastInDim S65536 ![] bcast_S_S65536 (constantI S_ 32 n))) x)

/-- The first table's rows at the first index vector. -/
def rows0 (x0 : (⟨S65536, .i32⟩ : BufTy).Contents (Elt Ideal)) (x3 : (⟨S50257x512, .f32⟩ : BufTy).Contents (Elt Ideal)) :
    (⟨S65536x512, .f32⟩ : BufTy).Contents (Elt Ideal) :=
  Host.gather gather_S50257x512_S65536x1_S65536x512_1_0_n_n_0_1_1512 x3 (wrapped 50257#32 x0)

/-- The second table's rows at the second index vector. -/
def rows1 (x1 : (⟨S65536, .i32⟩ : BufTy).Contents (Elt Ideal)) (x4 : (⟨S512x512, .f32⟩ : BufTy).Contents (Elt Ideal)) :
    (⟨S65536x512, .f32⟩ : BufTy).Contents (Elt Ideal) :=
  Host.gather gather_S512x512_S65536x1_S65536x512_1_0_n_n_0_1_1512 x4 (wrapped 512#32 x1)

/-- The third table's rows at the third index vector. -/
def rows2 (x2 : (⟨S65536, .i32⟩ : BufTy).Contents (Elt Ideal)) (x5 : (⟨S4096x512, .f32⟩ : BufTy).Contents (Elt Ideal)) :
    (⟨S65536x512, .f32⟩ : BufTy).Contents (Elt Ideal) :=
  Host.gather gather_S4096x512_S65536x1_S65536x512_1_0_n_n_0_1_1512 x5 (wrapped 4096#32 x2)

variable (m : (ℓ : Loc nD τ sig) → Buf (Elt Ideal) ℓ) (ρ : Dev nD → PrngReg)

/-- When the kernel is entered the first gathered array is `rows0` of the launch contents. -/
theorem V_rows0 (c : Dev nD) : (V m c main_v6 : S65536x512.Idx → EReal)
    = rows0 (m ((c : Thread nD τ).loc main_arg0)) (m ((c : Thread nD τ).loc main_arg3)) := by
  dsimp only [V, hostOps0]; after_results_simp <;> rfl

theorem V_rows1 (c : Dev nD) : (V m c main_v13 : S65536x512.Idx → EReal)
    = rows1 (m ((c : Thread nD τ).loc main_arg1)) (m ((c : Thread nD τ).loc main_arg4)) := by
  dsimp only [V, hostOps0]; after_results_simp <;> rfl

theorem V_rows2 (c : Dev nD) : (V m c main_v20 : S65536x512.Idx → EReal)
    = rows2 (m ((c : Thread nD τ).loc main_arg2)) (m ((c : Thread nD τ).loc main_arg5)) := by
  dsimp only [V, hostOps0]; after_results_simp <;> rfl

/-! ## The grid: where each window's block sits at point `t` -/

/-- The printed index maps, decided over the 128 points: at point `t` the three input blocks and the output block
    are block `t` along the rows and block 0 along the lanes, and the two vectors' block is block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 1) = 0 ∧ win0_4.index t (0 : Fin 1) = 0
    ∧ win0_5.index t (0 : Fin 2) = t.val ∧ win0_5.index t (1 : Fin 2) = 0 :=
  (by decide +kernel : ∀ t : Fin grid0.N, _)

/-- A grid point is below 128. -/
theorem point_lt (t : Fin cfg0.N) : t.val < 128 := by
  have hN : grid0.N = 128 := N_0
  have h : t.val < grid0.N := t.isLt
  omega

/-- The first input block at point `t`, at `(p, j)`, is the first gathered array at row `512 t + p`. -/
theorem blk0_apply (c : Dev nD) (t : Fin cfg0.N) (p j : Fin 512) (r : Fin 65536) (hr : r.val = 512 * t.val + p.val) :
    iblk m c 0 t (ix2 p j) = V m c main_v6 (ix2 r j) := by
  obtain ⟨e0, e1, -⟩ := idx_facts t
  show V m c main_v6 (((cfg0.win 0).blk t).view.emb (ix2 p j)) = V m c main_v6 (ix2 r j)
  refine congrArg (V m c main_v6) (funext fun a => Fin.ext ?_)
  match a with
  | ⟨0, _⟩ => show win0_0.index t (0 : Fin 2) * 512 + 1 * p.val = r.val; rw [e0, hr]; omega
  | ⟨1, _⟩ => show win0_0.index t (1 : Fin 2) * 512 + 1 * j.val = j.val; rw [e1]; omega

/-- The second input block likewise. -/
theorem blk1_apply (c : Dev nD) (t : Fin cfg0.N) (p j : Fin 512) (r : Fin 65536) (hr : r.val = 512 * t.val + p.val) :
    iblk m c 1 t (ix2 p j) = V m c main_v13 (ix2 r j) := by
  obtain ⟨-, -, e0, e1, -⟩ := idx_facts t
  show V m c main_v13 (((cfg0.win 1).blk t).view.emb (ix2 p j)) = V m c main_v13 (ix2 r j)
  refine congrArg (V m c main_v13) (funext fun a => Fin.ext ?_)
  match a with
  | ⟨0, _⟩ => show win0_1.index t (0 : Fin 2) * 512 + 1 * p.val = r.val; rw [e0, hr]; omega
  | ⟨1, _⟩ => show win0_1.index t (1 : Fin 2) * 512 + 1 * j.val = j.val; rw [e1]; omega

/-- The third input block likewise. -/
theorem blk2_apply (c : Dev nD) (t : Fin cfg0.N) (p j : Fin 512) (r : Fin 65536) (hr : r.val = 512 * t.val + p.val) :
    iblk m c 2 t (ix2 p j) = V m c main_v20 (ix2 r j) := by
  obtain ⟨-, -, -, -, e0, e1, -⟩ := idx_facts t
  show V m c main_v20 (((cfg0.win 2).blk t).view.emb (ix2 p j)) = V m c main_v20 (ix2 r j)
  refine congrArg (V m c main_v20) (funext fun a => Fin.ext ?_)
  match a with
  | ⟨0, _⟩ => show win0_2.index t (0 : Fin 2) * 512 + 1 * p.val = r.val; rw [e0, hr]; omega
  | ⟨1, _⟩ => show win0_2.index t (1 : Fin 2) * 512 + 1 * j.val = j.val; rw [e1]; omega

/-- The scale vector's block at every point is the whole vector. -/
theorem blk3_eq (c : Dev nD) (t : Fin cfg0.N) : iblk m c 3 t = V m c main_arg6 := by
  obtain ⟨-, -, -, -, -, -, e3, -⟩ := idx_facts t
  refine funext fun (y : S1024.Idx) => ?_
  show V m c main_arg6 (((cfg0.win 3).blk t).view.emb y) = V m c main_arg6 y
  refine congrArg (V m c main_arg6) (funext fun a => Fin.ext ?_)
  match a with
  | ⟨0, _⟩ => show win0_3.index t (0 : Fin 1) * 1024 + 1 * (y 0).val = (y 0).val; rw [e3]; omega

/-- The shift vector's block at every point is the whole vector. -/
theorem blk4_eq (c : Dev nD) (t : Fin cfg0.N) : iblk m c 4 t = V m c main_arg7 := by
  obtain ⟨-, -, -, -, -, -, -, e4, -⟩ := idx_facts t
  refine funext fun (y : S1024.Idx) => ?_
  show V m c main_arg7 (((cfg0.win 4).blk t).view.emb y) = V m c main_arg7 y
  refine congrArg (V m c main_arg7) (funext fun a => Fin.ext ?_)
  match a with
  | ⟨0, _⟩ => show win0_4.index t (0 : Fin 1) * 1024 + 1 * (y 0).val = (y 0).val; rw [e4]; omega

/-! ## A row of a block is a row of the array -/

/-- If row `p` of three blocks is row `r` of three arrays, the result at `(p, k)` from the blocks is the result at
    `(r, k)` from the arrays: the result at a row depends on that row only. -/
theorem at_rows {R : Nat} (A0 A1 A2 : (⟨2, ![R, 512]⟩ : Shape).Idx → EReal)
    (B0 B1 B2 : (⟨2, ![512, 512]⟩ : Shape).Idx → EReal) (a b : (⟨1, ![1024]⟩ : Shape).Idx → EReal)
    (p : Fin 512) (r : Fin R)
    (h0 : ∀ j : Fin 512, B0 (ix2 p j) = A0 (ix2 r j)) (h1 : ∀ j : Fin 512, B1 (ix2 p j) = A1 (ix2 r j))
    (h2 : ∀ j : Fin 512, B2 (ix2 p j) = A2 (ix2 r j)) (k : Fin 1024) :
    at_ B0 B1 B2 a b p k = at_ A0 A1 A2 a b r k := by
  have hl : lhalf B0 B1 p = lhalf A0 A1 r := funext fun j => by unfold lhalf; rw [h0 j, h1 j]
  have hr : rhalf B2 p = rhalf A2 r := funext fun j => by unfold rhalf; rw [h2 j]
  unfold at_
  rw [hl, hr]

/-! ## What point `t` writes back, the cover, the final array -/

/-- The result array as one function of the arrays the kernel finds. -/
abbrev found (c : Dev nD) : S65536x1024.Idx → EReal :=
  G (R := 65536) (V m c main_v6) (V m c main_v13) (V m c main_v20) (V m c main_arg6) (V m c main_arg7)

/-- WHAT POINT `t` WRITES BACK is block `t` of `found`. -/
theorem flushed_eq (c : Dev nD) (t : Fin cfg0.N) :
    (dats m 0 c).flushed 5 t = ((cfg0.win 5).blk t).view.read (Elt Ideal) (found m c) := by
  rw [flushed5, Cert.KernelBlock.out_block, blk3_eq, blk4_eq]
  obtain ⟨-, -, -, -, -, -, -, -, e0, e1⟩ := idx_facts t
  have ht := point_lt t
  refine funext fun (y : S512x1024.Idx) => ?_
  obtain ⟨p, k, rfl⟩ : ∃ (p : Fin 512) (k : Fin 1024), y = ix2 p k := ⟨y 0, y 1, eq_ix2 y⟩
  have hemb : ((cfg0.win 5).blk t).view.emb (ix2 p k) = ix2 (⟨512 * t.val + p.val, by omega⟩ : Fin 65536) k := by
    funext a; apply Fin.ext
    match a with
    | ⟨0, _⟩ => show win0_5.index t (0 : Fin 2) * 512 + 1 * p.val = 512 * t.val + p.val; rw [e0]; omega
    | ⟨1, _⟩ => show win0_5.index t (1 : Fin 2) * 1024 + 1 * k.val = k.val; rw [e1]; omega
  show G (iblk m c 0 t) (iblk m c 1 t) (iblk m c 2 t) (V m c main_arg6) (V m c main_arg7) (ix2 p k)
    = found m c (((cfg0.win 5).blk t).view.emb (ix2 p k))
  rw [hemb]
  exact at_rows (V m c main_v6) (V m c main_v13) (V m c main_v20) (iblk m c 0 t) (iblk m c 1 t) (iblk m c 2 t)
    (V m c main_arg6) (V m c main_arg7) p ⟨512 * t.val + p.val, by omega⟩
    (fun j => blk0_apply m c t p j _ rfl) (fun j => blk1_apply m c t p j _ rfl) (fun j => blk2_apply m c t p j _ rfl) k

/-- An index of the result array is in point `t`'s block iff each coordinate is in the block's range on its axis. -/
theorem mem_blk (t : Fin cfg0.N) (i : S65536x1024.Idx) :
    i ∈ ((cfg0.win 5).blk t).view.set ↔ ∀ a : Fin 2, win0_5.index t a * S512x1024.size a ≤ (i a).val
      ∧ (i a).val < win0_5.index t a * S512x1024.size a + S512x1024.size a := by
  show i ∈ ((View.whole main_v21).slice (win0_5.rect t)).set ↔ _
  rw [View.set_slice_whole, Rect.mem_set_unit]
  exact Iff.rfl

/-- Every index of the result array is in the block of the point `row / 512`. -/
theorem cover (i : S65536x1024.Idx) :
    ∃ t : Fin cfg0.N, (cfg0.win 5).flush t = true ∧ i ∈ ((cfg0.win 5).blk t).view.set := by
  have h0 : (i 0).val < 65536 := idx2_lt0 i
  have h1 : (i 1).val < 1024 := idx2_lt1 i
  have hN : grid0.N = 128 := N_0
  let t : Fin cfg0.N := ⟨(i 0).val / 512, by show (i 0).val / 512 < grid0.N; omega⟩
  obtain ⟨-, -, -, -, -, -, -, -, e0, e1⟩ := idx_facts t
  have ht : t.val = (i 0).val / 512 := rfl
  refine ⟨t, flush0_5 t, ?_⟩
  rw [mem_blk]
  intro a
  match a with
  | ⟨0, _⟩ => show win0_5.index t (0 : Fin 2) * 512 ≤ (i 0).val ∧ (i 0).val < win0_5.index t (0 : Fin 2) * 512 + 512; rw [e0, ht]; omega
  | ⟨1, _⟩ => show win0_5.index t (1 : Fin 2) * 1024 ≤ (i 1).val ∧ (i 1).val < win0_5.index t (1 : Fin 2) * 1024 + 1024; rw [e1]; omega

/-- THE RESULT ARRAY after the run: `G` of the three gathered arrays and the two vectors, as launched. -/
theorem final (c : Dev nD) : (dats m 0 c).arrAt 5 cfg0.N
    = G (R := 65536) (rows0 (m ((c : Thread nD τ).loc main_arg0)) (m ((c : Thread nD τ).loc main_arg3)))
        (rows1 (m ((c : Thread nD τ).loc main_arg1)) (m ((c : Thread nD τ).loc main_arg4)))
        (rows2 (m ((c : Thread nD τ).loc main_arg2)) (m ((c : Thread nD τ).loc main_arg5)))
        (m ((c : Thread nD τ).loc main_arg6)) (m ((c : Thread nD τ).loc main_arg7)) := by
  rw [(dats m 0 c).arrAt_eq_of_cover 5 (found m c) (fun t _ => flushed_eq m c t) cover]
  show G (R := 65536) (V m c main_v6) (V m c main_v13) (V m c main_v20) (V m c main_arg6) (V m c main_arg7) = _
  rw [V_rows0, V_rows1, V_rows2, V_main_arg6, V_main_arg7]

/-! ## The second result, and the run -/

/-- After the run the third gathered array, which the program returns as its second result, is as the kernel found
    it: the kernel stages it as an input and never writes it back. -/
theorem post_rows2 (r : PUnit × MemSt nD τ sig (Elt Ideal)) (h : Pipeline.FramePost cfgs (dats m) 0 (V m) r) (c : Dev nD) :
    r.2.mem ((c : Thread nD τ).loc main_v20)
      = rows2 (m ((c : Thread nD τ).loc main_arg2)) (m ((c : Thread nD τ).loc main_arg5)) :=
  ((h c).1 2).trans (((dats m 0 c).arrAt_in 2 rfl _).trans ((A_eq m c 2).trans (V_rows2 m c)))

/-- THE RUN: every weakly fair execution of the kernel's program terminates with the first result at `G` of the
    gathered arrays, the second at the third gathered array, and the arguments unchanged. -/
theorem run : θ_run defs (onTc (τ := τ) (main (F := Ideal))) ⟨m, fun _ => 0, ρ⟩ fun r => ∀ c : Dev nD,
      r.2.mem ((c : Thread nD τ).loc main_v21)
        = G (R := 65536) (rows0 (m ((c : Thread nD τ).loc main_arg0)) (m ((c : Thread nD τ).loc main_arg3)))
            (rows1 (m ((c : Thread nD τ).loc main_arg1)) (m ((c : Thread nD τ).loc main_arg4)))
            (rows2 (m ((c : Thread nD τ).loc main_arg2)) (m ((c : Thread nD τ).loc main_arg5)))
            (m ((c : Thread nD τ).loc main_arg6)) (m ((c : Thread nD τ).loc main_arg7))
      ∧ r.2.mem ((c : Thread nD τ).loc main_v20)
        = rows2 (m ((c : Thread nD τ).loc main_arg2)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(post5 m r h c).trans (final m c),
      post_rows2 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c⟩)
    (run_main m ρ)

end Cert.KernelArray

end
-- ==== Proof.RefRows.lean ====
/-
  The reference program's result, read entry by entry, is the row-normalisation array of the specification.

  The program gathers three arrays of 65536 rows by 512 lanes, adds the first two lane by lane, and joins that sum
  with the third along the lane axis into rows of 1024 entries. Of each row it takes the sum from zero divided by the
  word for 1024 (the mean), subtracts it from every entry, takes the root of the squared deviations' sum from zero
  divided by the word for 1023 and adds the fixed offset (the spread), divides every deviation by the spread, scales by
  the lane's entry of one vector and shifts by the lane's entry of another. Every stage but the joining reads one
  entry of each operand, so the result's entry at row `r`, lane `k` is the whole-row reading `entryW` of the joined row
  at its entry `k`; the joined row's entry `k` is the left half's entry `k` when `k < 512` and the right half's entry
  `k − 512` otherwise, which is `joined`. Nothing is asked of the three gathered arrays.
-/
import proofs.«181638_j24902220382934_2_alg».proof.Proof.Gen.ReferenceIdeal.Read
import proofs.«181638_j24902220382934_2_alg».proof.Proof.RowNorm
import Idealize.ShloMosaic.Lib.Pipeline.Value
import Idealize.ShloMosaic.Lib.ValueIdx
import Idealize.ShloMosaic.PureOps.Ideal.Laws

noncomputable section

open scoped BigOperators

namespace Cert.RefRows

open Cert.ReferenceIdeal Cert.ReferenceIdeal.Gen Cert.ReferenceIdeal.Read Idealize.ShloMosaic Idealize.ShloMosaic.ValueIdx Cert.RowNorm

/-! ## Where each stage reads its operand, at an index given by its row and lane -/

/-- An entry `(r, k)` of a row-wide array reads the row's column entry `(r, 0)`. -/
theorem col_of_entry (r : Fin 65536) (k : Fin 1024) : idx_main_v27 (ix2 r k) = ix2 r (0 : Fin 1) :=
  funext fun a => Fin.ext (by match a with | ⟨0, _⟩ => rfl | ⟨1, _⟩ => rfl)

/-- The column entry `(r, 0)` reads the per-row vector at `r`. -/
theorem row_of_col (r : Fin 65536) : idx_main_v24 (ix2 r (0 : Fin 1)) = ix1 r :=
  funext fun a => Fin.ext (by match a with | ⟨0, _⟩ => rfl)

/-- The row sum at `r` runs over the entries `(r, k)`. -/
theorem entry_of_row (r : Fin 65536) (k : Fin 1024) : idx_main_v23 (ix1 r) k = ix2 r k :=
  funext fun a => Fin.ext (by match a with | ⟨0, _⟩ => rfl | ⟨1, _⟩ => rfl)

/-- An entry `(r, k)` of the broadcast lane vector reads the one-row array at `(0, k)`. -/
theorem lane_of_entry (r : Fin 65536) (k : Fin 1024) : idx_main_v40 (ix2 r k) = ix2 (0 : Fin 1) k :=
  funext fun a => Fin.ext (by match a with | ⟨0, _⟩ => rfl | ⟨1, _⟩ => rfl)

/-- The one-row array's entry `(0, k)` reads the lane vector at `k`. -/
theorem vec_of_lane (k : Fin 1024) : idx_main_v39 (ix2 (0 : Fin 1) k) = ix1 k :=
  funext fun a => Fin.ext (by match a with | ⟨0, _⟩ => rfl)

section Stages
variable (x0 x1 x2 : (⟨S65536, .i32⟩ : BufTy).Contents (Elt Ideal))
  (x3 : (⟨S50257x512, .f32⟩ : BufTy).Contents (Elt Ideal)) (x4 : (⟨S512x512, .f32⟩ : BufTy).Contents (Elt Ideal))
  (x5 : (⟨S4096x512, .f32⟩ : BufTy).Contents (Elt Ideal)) (x6 x7 : (⟨S1024, .f32⟩ : BufTy).Contents (Elt Ideal))

/-! ## The joined row -/

/-- Row `r` of the joined array, entry `k`: the sum of the first two gathered arrays at lane `k` when `k < 512`, the third
    gathered array at lane `k − 512` otherwise. -/
theorem joined_row (r : Fin 65536) (k : Fin 1024) :
    val_main_v22 (F := Ideal) x0 x1 x2 x3 x4 x5 (ix2 r k)
      = joined (lhalf (val_main_v6 (F := Ideal) x0 x3) (val_main_v13 (F := Ideal) x1 x4) r)
          (rhalf (val_main_v21 (F := Ideal) x2 x5) r) k := by
  unfold val_main_v22 joined
  by_cases h : k.val < 512
  · rw [dif_pos h]
    refine (concatenate_pair_apply_left (t := S65536x1024) (s₁ := S65536x512) (s₂ := S65536x512) _ _ _ _ (ix2 r k) rfl (ix2 r (⟨k.val, h⟩ : Fin 512)) ?_).trans ?_
    · intro b
      match b with
      | ⟨0, _⟩ => rfl
      | ⟨1, _⟩ => rfl
    · rw [val_main_v14_apply, Ideal.addf_def]
      rfl
  · rw [dif_neg h]
    have hk : k.val - 512 < 512 := by have := k.isLt; omega
    refine (concatenate_pair_apply_right (t := S65536x1024) (s₁ := S65536x512) (s₂ := S65536x512) _ _ _ _ (ix2 r k) rfl rfl (ix2 r (⟨k.val - 512, hk⟩ : Fin 512)) ?_ ?_).trans ?_
    · intro b
      match b with
      | ⟨0, _⟩ => intro _; rfl
      | ⟨1, _⟩ => intro hb; exact absurd rfl hb
    · show k.val - 512 + 512 = k.val
      omega
    · rfl

/-! ## The stages at an index, in terms of the joined row `fun k' => (joined array) (r, k')` -/

/-- The first row sum at `r`: zero plus the sum of the row's 1024 entries. -/
theorem sum_at (r : Fin 65536) :
    val_main_v23 (F := Ideal) x0 x1 x2 x3 x4 x5 (ix1 r)
      = 0 + ∑ k : Fin 1024, val_main_v22 (F := Ideal) x0 x1 x2 x3 x4 x5 (ix2 r k) := by
  rw [val_main_v23_apply, val_main_cst_apply, Ideal.ofBits_def, Ideal.ofBits_zero_f32]
  exact congrArg (0 + ·) (Finset.sum_congr rfl fun k _ => congrArg _ (entry_of_row r k))

/-- The broadcast mean at `(r, k)` is the whole-row mean of row `r`. -/
theorem mean_at (r : Fin 65536) (k : Fin 1024) :
    val_main_v27 (F := Ideal) x0 x1 x2 x3 x4 x5 (ix2 r k)
      = meanW (fun k' => val_main_v22 (F := Ideal) x0 x1 x2 x3 x4 x5 (ix2 r k')) := by
  rw [val_main_v27_apply, val_main_v26_apply, val_main_v24_apply, val_main_v25_apply, val_main_cst_5_apply,
    Ideal.hostDivf_def, Ideal.ofBits_def, col_of_entry, row_of_col, sum_at]
  rfl

/-- The deviation at `(r, k)`: the entry less its row's mean. -/
theorem dev_at (r : Fin 65536) (k : Fin 1024) :
    val_main_v28 (F := Ideal) x0 x1 x2 x3 x4 x5 (ix2 r k)
      = val_main_v22 (F := Ideal) x0 x1 x2 x3 x4 x5 (ix2 r k)
        - meanW (fun k' => val_main_v22 (F := Ideal) x0 x1 x2 x3 x4 x5 (ix2 r k')) := by
  rw [val_main_v28_apply, Ideal.subf_def, mean_at]

/-- The second row sum at `r`: zero plus the sum of the row's squared deviations. -/
theorem sqsum_at (r : Fin 65536) :
    val_main_v30 (F := Ideal) x0 x1 x2 x3 x4 x5 (ix1 r)
      = 0 + ∑ k : Fin 1024,
          (val_main_v22 (F := Ideal) x0 x1 x2 x3 x4 x5 (ix2 r k)
              - meanW (fun k' => val_main_v22 (F := Ideal) x0 x1 x2 x3 x4 x5 (ix2 r k')))
            * (val_main_v22 (F := Ideal) x0 x1 x2 x3 x4 x5 (ix2 r k)
              - meanW (fun k' => val_main_v22 (F := Ideal) x0 x1 x2 x3 x4 x5 (ix2 r k'))) := by
  rw [val_main_v30_apply, val_main_cst_6_apply, Ideal.ofBits_def, Ideal.ofBits_zero_f32]
  refine congrArg (0 + ·) (Finset.sum_congr rfl fun k _ => ?_)
  rw [val_main_v29_apply, Ideal.mulf_def, show idx_main_v30 (ix1 r) k = ix2 r k from entry_of_row r k, dev_at]

/-- The broadcast spread at `(r, k)` is the whole-row spread of row `r`. -/
theorem spread_at (r : Fin 65536) (k : Fin 1024) :
    val_main_v37 (F := Ideal) x0 x1 x2 x3 x4 x5 (ix2 r k)
      = spreadW (fun k' => val_main_v22 (F := Ideal) x0 x1 x2 x3 x4 x5 (ix2 r k')) := by
  rw [val_main_v37_apply, val_main_v36_apply, val_main_v34_apply, val_main_v33_apply, val_main_v31_apply,
    val_main_v32_apply, val_main_cst_7_apply, val_main_v35_apply, val_main_cst_8_apply,
    Ideal.addf_def, Ideal.hostUnary_sqrt_def, Ideal.hostDivf_def, Ideal.ofBits_def, Ideal.ofBits_def]
  rw [show idx_main_v37 (ix2 r k) = ix2 r (0 : Fin 1) from col_of_entry r k,
    show idx_main_v31 (ix2 r (0 : Fin 1)) = ix1 r from row_of_col r, sqsum_at]
  rfl

/-- The scale at `(r, k)` is the scale vector's entry `k`. -/
theorem scale_at (r : Fin 65536) (k : Fin 1024) : val_main_v40 (F := Ideal) x6 (ix2 r k) = x6 (ix1 k) := by
  rw [val_main_v40_apply, val_main_v39_apply, lane_of_entry, vec_of_lane]

/-- The shift at `(r, k)` is the shift vector's entry `k`. -/
theorem shift_at (r : Fin 65536) (k : Fin 1024) : val_main_v43 (F := Ideal) x7 (ix2 r k) = x7 (ix1 k) := by
  rw [val_main_v43_apply, val_main_v42_apply,
    show idx_main_v43 (ix2 r k) = ix2 (0 : Fin 1) k from lane_of_entry r k,
    show idx_main_v42 (ix2 (0 : Fin 1) k) = ix1 k from vec_of_lane k]

/-- THE RESULT AT `(r, k)`: the whole-row reading of the joined row `r` at its entry `k`. -/
theorem result_at (r : Fin 65536) (k : Fin 1024) :
    val_main_v44 (F := Ideal) x0 x1 x2 x3 x4 x5 x6 x7 (ix2 r k)
      = entryW (fun k' => val_main_v22 (F := Ideal) x0 x1 x2 x3 x4 x5 (ix2 r k'))
          (val_main_v22 (F := Ideal) x0 x1 x2 x3 x4 x5 (ix2 r k)) (x6 (ix1 k)) (x7 (ix1 k)) := by
  rw [val_main_v44_apply, val_main_v41_apply, val_main_v38_apply, Ideal.addf_def, Ideal.mulf_def, Ideal.hostDivf_def,
    dev_at, spread_at, scale_at, shift_at]
  rfl

end Stages

/-! ## The whole array -/

theorem ref_is_G (x0 x1 x2 : (⟨S65536, .i32⟩ : BufTy).Contents (Elt Ideal))
    (x3 : (⟨S50257x512, .f32⟩ : BufTy).Contents (Elt Ideal)) (x4 : (⟨S512x512, .f32⟩ : BufTy).Contents (Elt Ideal))
    (x5 : (⟨S4096x512, .f32⟩ : BufTy).Contents (Elt Ideal)) (x6 x7 : (⟨S1024, .f32⟩ : BufTy).Contents (Elt Ideal)) :
    val_main_v44 (F := Ideal) x0 x1 x2 x3 x4 x5 x6 x7
      = Cert.RowNorm.G (R := 65536) (val_main_v6 (F := Ideal) x0 x3) (val_main_v13 (F := Ideal) x1 x4)
          (val_main_v21 (F := Ideal) x2 x5) x6 x7 := by
  funext i
  obtain ⟨r, k, rfl⟩ : ∃ (r : Fin 65536) (k : Fin 1024), i = ix2 r k := ⟨i 0, i 1, eq_ix2 i⟩
  rw [G_ix2, result_at]
  unfold at_
  rw [← entryW_joined]
  have hz : (fun k' => val_main_v22 (F := Ideal) x0 x1 x2 x3 x4 x5 (ix2 r k'))
      = joined (lhalf (val_main_v6 (F := Ideal) x0 x3) (val_main_v13 (F := Ideal) x1 x4) r)
          (rhalf (val_main_v21 (F := Ideal) x2 x5) r) := funext fun k' => joined_row x0 x1 x2 x3 x4 x5 r k'
  rw [hz, joined_row]

end Cert.RefRows

end
-- ==== Proof.lean ====
/-
  The certificate of a fused row normalisation against its plain reference.

  Both programs gather the rows of three tables at three index vectors into arrays of 65536 rows by 512 lanes, join
  the sum of the first two with the third into rows of 1024 entries, and send each entry `x` of a row to
  `(x − mean) / (spread) · a + b`: `mean` the row's mean, `spread` the root of the row's squared deviations' sum over
  1023 plus a fixed offset, `a` and `b` the lane's scale and shift. Both also return the third gathered array.

  The kernel computes this block by block, 512 rows at a time, never forming the joined row: it sums each half by
  itself and multiplies by the reciprocals 1/1024 and 1/1023, which its idealization names as those exact rationals.
  The reference forms the joined row, sums it whole and divides by 1024 and 1023. On the extended reals a sum over the
  joined row is the sum of the two half sums, and division by a nonzero real is multiplication by its reciprocal at
  every argument, so the two are one function of the gathered arrays; the gathers themselves are the same operations
  in both programs and are never opened. No finiteness of the inputs is used.

  `RowNorm` states the function and the law; `KernelBlock` reads the kernel body's two stores as that function of its
  input blocks; `KernelArray` tiles the result array by the 128 blocks and reads the host operations before the kernel;
  `RefRows` reads the reference entry by entry. Here the two runs are set side by side.
-/
import proofs.«181638_j24902220382934_2_alg».proof.Defs
import proofs.«181638_j24902220382934_2_alg».proof.Proof.Gen.Kernel
import proofs.«181638_j24902220382934_2_alg».proof.Proof.Gen.Kernel.Skeleton
import proofs.«181638_j24902220382934_2_alg».proof.Proof.Gen.Kernel.Launch
import proofs.«181638_j24902220382934_2_alg».proof.Proof.Gen.Kernel.Points
import proofs.«181638_j24902220382934_2_alg».proof.Proof.Gen.Kernel.Frame
import proofs.«181638_j24902220382934_2_alg».proof.Proof.Gen.KernelIdeal
import proofs.«181638_j24902220382934_2_alg».proof.Proof.Gen.KernelIdeal.Skeleton
import proofs.«181638_j24902220382934_2_alg».proof.Proof.Gen.KernelIdeal.Launch
import proofs.«181638_j24902220382934_2_alg».proof.Proof.Gen.KernelIdeal.Points
import proofs.«181638_j24902220382934_2_alg».proof.Proof.Gen.KernelIdeal.Frame
import proofs.«181638_j24902220382934_2_alg».proof.Proof.Gen.ReferenceIdeal
import proofs.«181638_j24902220382934_2_alg».proof.Proof.Gen.Pre_finite_inputs
import proofs.«181638_j24902220382934_2_alg».proof.Proof.Gen.KernelIdeal.Value
import proofs.«181638_j24902220382934_2_alg».proof.Proof.Gen.ReferenceIdeal.Run
import proofs.«181638_j24902220382934_2_alg».proof.Proof.Gen.ReferenceIdeal.Read
import proofs.«181638_j24902220382934_2_alg».proof.Proof.KernelArray
import proofs.«181638_j24902220382934_2_alg».proof.Proof.RefRows
import Idealize.ShloMosaic.Adequacy
import Idealize.ShloMosaic.Init

noncomputable section

namespace Cert.Proof

open Idealize.ShloMosaic Idealize.SL.Sem

/-! ## The gathers are the same operations in both programs -/

/-- The reference's first gather is the kernel program's: the same table rows at the same wrapped indices. -/
theorem rows0_eq (x0 : (⟨Cert.ReferenceIdeal.S65536, .i32⟩ : BufTy).Contents (Elt Ideal))
    (x3 : (⟨Cert.ReferenceIdeal.S50257x512, .f32⟩ : BufTy).Contents (Elt Ideal)) :
    Cert.ReferenceIdeal.Read.val_main_v6 (F := Ideal) x0 x3 = Cert.KernelArray.rows0 x0 x3 := rfl

/-- The second gather likewise. -/
theorem rows1_eq (x1 : (⟨Cert.ReferenceIdeal.S65536, .i32⟩ : BufTy).Contents (Elt Ideal))
    (x4 : (⟨Cert.ReferenceIdeal.S512x512, .f32⟩ : BufTy).Contents (Elt Ideal)) :
    Cert.ReferenceIdeal.Read.val_main_v13 (F := Ideal) x1 x4 = Cert.KernelArray.rows1 x1 x4 := rfl

/-- The third gather likewise. -/
theorem rows2_eq (x2 : (⟨Cert.ReferenceIdeal.S65536, .i32⟩ : BufTy).Contents (Elt Ideal))
    (x5 : (⟨Cert.ReferenceIdeal.S4096x512, .f32⟩ : BufTy).Contents (Elt Ideal)) :
    Cert.ReferenceIdeal.Read.val_main_v21 (F := Ideal) x2 x5 = Cert.KernelArray.rows2 x2 x5 := rfl

/-! ## The claims -/

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The two named constants denote the rationals 1/1024 and 1/1023 the certificate's table gives them. -/
theorem preserves : Cert.preserves_Kernel_KernelIdeal :=
  ⟨IdealRules.named_const.statement Cert.KernelIdeal.κ "a_exact_inv_1024" .f32 0x3A800000#32 ((1 / 1024 : ℝ) : EReal) rfl,
   IdealRules.named_const.statement Cert.KernelIdeal.κ "inv_1023" .f32 0x3A802008#32 ((1 / 1023 : ℝ) : EReal) rfl⟩

/-- Both programs end with the row-normalised array of the same three gathered arrays, and with the third of them. -/
theorem algebraic : Cert.algebraic_KernelIdeal_ReferenceIdeal := by
  intro m ρ m' ρ' _ hagree
  refine ⟨_, _, Cert.KernelArray.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨a0, a1, a2, a3, a4, a5, a6, a7⟩ := hagree c
    rw [Cert.ReferenceIdeal.Read.val_main_v44_eq, Cert.RefRows.ref_is_G, rows0_eq, rows1_eq, rows2_eq,
      a0, a1, a2, a3, a4, a5, a6, a7]
  · obtain ⟨a0, a1, a2, a3, a4, a5, a6, a7⟩ := hagree c
    rw [Cert.ReferenceIdeal.Read.val_main_v21_eq, rows2_eq, a2, a5]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
